-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S640000 : Shape := ⟨1, ![640000]⟩
abbrev S128x128 : Shape := ⟨2, ![128, 128]⟩
abbrev S128x2 : Shape := ⟨2, ![128, 2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_

variable [Facts]

def fn_part1 {F : FTy → Type} [FloatOps F] (main_v13 : IVec S_ 1) (main_v16 : IVec S128x2 1) : IVec S_ 1 :=
  let main_c_5 : IVec S_ 1 := constantI S_ 1 1#1
  let main_v17 : IVec S_ 1 := (fun x v => Host.reduce IntOp.andi x v reducesTo_S128x2_S_d0_1 h_S_) main_v16 main_c_5
  let main_v18 : IVec S_ 1 := andi main_v13 main_v17
  main_v18

def fn {F : FTy → Type} [FloatOps F] (main_arg0 : FVec F S100000x128 .f32) (main_arg1 : IVec S640000 32) (main_arg2 : IVec S640000 32) (main_arg3 : FVec F S128x128 .f32) (main_arg4 : FVec F S128x128 .f32) (main_arg5 : FVec F S128x2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x2 .f32 := Host.absf main_arg5
  let main_cst_4 : FVec F S_ .f32 := constant S_ .f32 0x7F800000#32
  let main_v15 : FVec F S128x2 .f32 := broadcastInDim S128x2 ![] bcast_S_S128x2 main_cst_4
  let main_v16 : IVec S128x2 1 := cmpf .olt main_v14 main_v15
  fn_part1 (F := F) main_v13 main_v16
-- ==== Kernel.lean ====
abbrev S100000x128 : Shape := ⟨2, ![100000, 128]⟩
abbrev S640000 : Shape := ⟨1, ![640000]⟩
abbrev S128x128 : Shape := ⟨2, ![128, 128]⟩
abbrev S128x2 : Shape := ⟨2, ![128, 2]⟩
abbrev S_ : Shape := ⟨0, ![]⟩
abbrev S640000x1 : Shape := ⟨2, ![640000, 1]⟩
abbrev S640000x128 : Shape := ⟨2, ![640000, 128]⟩
abbrev S640000x2 : Shape := ⟨2, ![640000, 2]⟩
abbrev S6400x128 : Shape := ⟨2, ![6400, 128]⟩
abbrev S6400x2 : Shape := ⟨2, ![6400, 2]⟩

abbrev nBuf : Space → Nat
  | .hbm => 26
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128x128, .f32⟩
  | .hbm, ⟨5, _⟩ => ⟨S128x2, .f32⟩
  | .hbm, ⟨6, _⟩ => ⟨S100000x128, .bf16⟩
  | .hbm, ⟨7, _⟩ => ⟨S_, .i32⟩
  | .hbm, ⟨8, _⟩ => ⟨S640000, .i32⟩
  | .hbm, ⟨9, _⟩ => ⟨S640000, .i1⟩
  | .hbm, ⟨10, _⟩ => ⟨S_, .i32⟩
  | .hbm, ⟨11, _⟩ => ⟨S640000, .i32⟩
  | .hbm, ⟨12, _⟩ => ⟨S640000, .i32⟩
  | .hbm, ⟨13, _⟩ => ⟨S640000, .i32⟩
  | .hbm, ⟨14, _⟩ => ⟨S640000x1, .i32⟩
  | .hbm, ⟨15, _⟩ => ⟨S640000x128, .bf16⟩
  | .hbm, ⟨16, _⟩ => ⟨S_, .i32⟩
  | .hbm, ⟨17, _⟩ => ⟨S640000, .i32⟩
  | .hbm, ⟨18, _⟩ => ⟨S640000, .i1⟩
  | .hbm, ⟨19, _⟩ => ⟨S_, .i32⟩
  | .hbm, ⟨20, _⟩ => ⟨S640000, .i32⟩
  | .hbm, ⟨21, _⟩ => ⟨S640000, .i32⟩
  | .hbm, ⟨22, _⟩ => ⟨S640000, .i32⟩
  | .hbm, ⟨23, _⟩ => ⟨S640000x1, .i32⟩
  | .hbm, ⟨24, _⟩ => ⟨S640000x128, .bf16⟩
  | .hbm, ⟨25, _⟩ => ⟨S640000x2, .f32⟩
  | .local _ .vmem, ⟨0, _⟩ => ⟨S6400x128, .bf16⟩
  | .local _ .vmem, ⟨1, _⟩ => ⟨S6400x128, .bf16⟩
  | .local _ .vmem, ⟨2, _⟩ => ⟨S6400x128, .bf16⟩
  | .local _ .vmem, ⟨3, _⟩ => ⟨S6400x128, .bf16⟩
  | .local _ .vmem, ⟨4, _⟩ => ⟨S128x128, .f32⟩
  | .local _ .vmem, ⟨5, _⟩ => ⟨S128x128, .f32⟩
  | .local _ .vmem, ⟨6, _⟩ => ⟨S128x2, .f32⟩
  | .local _ .vmem, ⟨7, _⟩ => ⟨S6400x2, .f32⟩
  | .local _ .vmem, ⟨8, _⟩ => ⟨S6400x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S6400x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  bcast_S_S640000 : S_.BroadcastsInDim S640000 (![] : Fin 0 → Fin S640000.rank)
  bcast_S640000_S640000x1_0 : S640000.BroadcastsInDim S640000x1 (![0] : Fin 1 → Fin S640000x1.rank)
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S128x128_S128x128_0_0 : ∀ a, (![0, 0] : Fin 2 → Nat) a + S128x128.size a ≤ S128x128.size a
  h_S128x128 : 0 < S128x128.numel
  inb_S128x2_S128x2_0_0 : ∀ a, (![0, 0] : Fin 2 → Nat) a + S128x2.size a ≤ S128x2.size a
  h_S128x2 : 0 < S128x2.numel
  inb_S6400x2_S6400x2_0_0 : ∀ a, (![0, 0] : Fin 2 → Nat) a + S6400x2.size a ≤ S6400x2.size a
  h_S6400x2 : 0 < S6400x2.numel
  gather_S100000x128_S640000x1_S640000x128_1_0_n_n_0_1_1128_wf : GatherDims.WF S100000x128 S640000x1 S640000x128 [1] [0] [] [0] [] 1 ![1, 128]
  dot_S6400x128_S128x128_S6400x128_1_0_0_1_n_n_wf : DotDims.WF S6400x128 S128x128 S6400x128 [1] [0] [0] [1] [] []
  dot_S6400x128_S128x2_S6400x2_1_0_0_1_n_n_wf : DotDims.WF S6400x128 S128x2 S6400x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S640000x128.size a
  hwx0_0 : ∀ i : grid0.Coords, EltTy.bits .bf16 = 32 ∨ (Rect.block (s := S640000x128) S6400x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S640000x128.size a
  hwx0_1 : ∀ i : grid0.Coords, EltTy.bits .bf16 = 32 ∨ (Rect.block (s := S640000x128) S6400x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x2.size a ≤ S128x2.size a
  hwx0_4 : ∀ i : grid0.Coords, EltTy.bits .f32 = 32 ∨ (Rect.block (s := S128x2) S128x2.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S6400x2.size a ≤ S640000x2.size a
  hwx0_5 : ∀ i : grid0.Coords, EltTy.bits .f32 = 32 ∨ (Rect.block (s := S640000x2) S6400x2.size (cc0_transform_5 i) (hinb0_5 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def dot_S6400x128_S128x2_S6400x2_1_0_0_1_n_n : DotDims S6400x128 S128x2 S6400x2 where
  lhsContracting := [1]
  rhsContracting := [0]
  lhsNonContracting := [0]
  rhsNonContracting := [1]
  lhsBatch := []
  rhsBatch := []
  wf := dot_S6400x128_S128x2_S6400x2_1_0_0_1_n_n_wf

abbrev win0_0 : Pipeline.Window sig grid0 :=
  Pipeline.Window.ofSpec (Memref.whole main_v7) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S6400x2.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S640000 : Shape := ⟨1, ![640000]⟩
abbrev S128x128 : Shape := ⟨2, ![128, 128]⟩
abbrev S128x2 : Shape := ⟨2, ![128, 2]⟩
abbrev S_ : Shape := ⟨0, ![]⟩
abbrev S640000x1 : Shape := ⟨2, ![640000, 1]⟩
abbrev S640000x128 : Shape := ⟨2, ![640000, 128]⟩
abbrev S640000x2 : Shape := ⟨2, ![640000, 2]⟩

abbrev nBuf : Space → Nat
  | .hbm => 34
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128x128, .f32⟩
  | .hbm, ⟨5, _⟩ => ⟨S128x2, .f32⟩
  | .hbm, ⟨6, _⟩ => ⟨S_, .i32⟩
  | .hbm, ⟨7, _⟩ => ⟨S640000, .i32⟩
  | .hbm, ⟨8, _⟩ => ⟨S640000, .i1⟩
  | .hbm, ⟨9, _⟩ => ⟨S_, .i32⟩
  | .hbm, ⟨10, _⟩ => ⟨S640000, .i32⟩
  | .hbm, ⟨11, _⟩ => ⟨S640000, .i32⟩
  | .hbm, ⟨12, _⟩ => ⟨S640000, .i32⟩
  | .hbm, ⟨13, _⟩ => ⟨S640000x1, .i32⟩
  | .hbm, ⟨14, _⟩ => ⟨S640000x128, .f32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x128, .f32⟩
  | .hbm, ⟨24, _⟩ => ⟨S640000x128, .f32⟩
  | .hbm, ⟨25, _⟩ => ⟨S640000x128, .f32⟩
  | .hbm, ⟨26, _⟩ => ⟨S_, .f32⟩
  | .hbm, ⟨27, _⟩ => ⟨S640000x128, .f32⟩
  | .hbm, ⟨28, _⟩ => ⟨S640000x128, .f32⟩
  | .hbm, ⟨29, _⟩ => ⟨S640000x128, .f32⟩
  | .hbm, ⟨30, _⟩ => ⟨S_, .f32⟩
  | .hbm, ⟨31, _⟩ => ⟨S640000x128, .f32⟩
  | .hbm, ⟨32, _⟩ => ⟨S640000x128, .f32⟩
  | .hbm, ⟨33, _⟩ => ⟨S640000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_call1_cst : Ref sig .tc := ⟨.hbm, 30, rfl⟩
abbrev main_call1_v0 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S640000x128 : S_.BroadcastsInDim S640000x128 (![] : Fin 0 → Fin S640000x128.rank)
  gather_S100000x128_S640000x1_S640000x128_1_0_n_n_0_1_1128_wf : GatherDims.WF S100000x128 S640000x1 S640000x128 [1] [0] [] [0] [] 1 ![1, 128]
  dot_S640000x128_S128x128_S640000x128_1_0_0_1_n_n_wf : DotDims.WF S640000x128 S128x128 S640000x128 [1] [0] [0] [1] [] []
  dot_S640000x128_S128x2_S640000x2_1_0_0_1_n_n_wf : DotDims.WF S640000x128 S128x2 S640000x2 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def dot_S640000x128_S128x2_S640000x2_1_0_0_1_n_n : DotDims S640000x128 S128x2 S640000x2 where
  lhsContracting := [1]
  rhsContracting := [0]
  lhsNonContracting := [0]
  rhsNonContracting := [1]
  lhsBatch := []
  rhsBatch := []
  wf := dot_S640000x128_S128x2_S640000x2_1_0_0_1_n_n_wf

class Facts : Prop extends Facts₀ where

variable [Facts]
-- ==== Proof.Score.lean ====
/-
  The score of one edge, as a function on the extended reals.

  For an edge `e` let `a e ·` and `b e ·` be the feature rows (128 numbers each) of its two endpoints, and let
  `W₁, W₂` (128 × 128) and `W₃` (128 × 2) be the weights of a three-layer perceptron without bias. The score is

      x  i = a e i * b e i
      h₁ j = max (∑ i, x  i * W₁ i j) 0
      h₂ k = max (∑ j, h₁ j * W₂ j k) 0
      s  c = ∑ k, h₂ k * W₃ k c

  It is stated twice. `scores` builds it layer by layer on whole arrays of `R` rows (`layer`: a matrix product read at an
  index as a sum over the contracted coordinate; `relu`: the pointwise maximum with zero); this is the form in which a matrix
  product of a block of rows and the matrix product of all rows are literally the same expression, at two values of `R`.
  `rowScore` is the same number written for one row; `scores_apply` says the two agree, and `scores_congr_row` draws the
  consequence used for tiling: the score of a row depends on the arrays only through that row, so a block of rows of the result
  is the result of the block of rows.

  Nothing here needs the entries to be finite: no distributivity or cancellation is used, the two sides that meet this
  function are the same sums of the same products.
-/
import Idealize.ShloMosaic.PureOps.Ideal
import Idealize.ShloMosaic.Lib.ValueIdx

noncomputable section

open scoped BigOperators

namespace Cert.EdgeScore

open Idealize.ShloMosaic Idealize.ShloMosaic.ValueIdx

/-- A matrix product read at an index: entry `(r, c)` of `h · w`, for `h` of `R` rows and 128 columns and `w` of 128 rows
    and `n` columns, is the sum over `k` of `h (r, k) * w (k, c)`. -/
def layer {R n : Nat} (h : (⟨2, ![R, 128]⟩ : Shape).Idx → EReal) (w : (⟨2, ![128, n]⟩ : Shape).Idx → EReal) :
    (⟨2, ![R, n]⟩ : Shape).Idx → EReal :=
  fun i => ∑ k : Fin 128, h (ix2 ⟨(i 0).val, idx2_lt0 i⟩ k) * w (ix2 k ⟨(i 1).val, idx2_lt1 i⟩)

/-- The pointwise maximum with zero. -/
def relu {S : Shape} (h : S.Idx → EReal) : S.Idx → EReal := fun i => max (h i) 0

/-- The scores of `R` edges from the two arrays of endpoint rows: three matrix products, the first two followed by the
    maximum with zero, of the pointwise product of the rows. -/
def scores {R : Nat} (a b : (⟨2, ![R, 128]⟩ : Shape).Idx → EReal) (w1 w2 : (⟨2, ![128, 128]⟩ : Shape).Idx → EReal)
    (w3 : (⟨2, ![128, 2]⟩ : Shape).Idx → EReal) : (⟨2, ![R, 2]⟩ : Shape).Idx → EReal :=
  layer (relu (layer (relu (layer (fun i => a i * b i) w1)) w2)) w3

/-- The score of ONE row `x` of products, component `c`. -/
def rowScore (w1 w2 : (⟨2, ![128, 128]⟩ : Shape).Idx → EReal) (w3 : (⟨2, ![128, 2]⟩ : Shape).Idx → EReal)
    (x : Fin 128 → EReal) (c : Fin 2) : EReal :=
  ∑ k : Fin 128, max (∑ j : Fin 128, max (∑ i : Fin 128, x i * w1 (ix2 i j)) 0 * w2 (ix2 j k)) 0 * w3 (ix2 k c)

/-- Entry `(r, c)` of `scores` is the score of row `r`: each layer reads the previous one along the same row. -/
theorem scores_apply {R : Nat} (a b : (⟨2, ![R, 128]⟩ : Shape).Idx → EReal) (w1 w2 : (⟨2, ![128, 128]⟩ : Shape).Idx → EReal)
    (w3 : (⟨2, ![128, 2]⟩ : Shape).Idx → EReal) (i : (⟨2, ![R, 2]⟩ : Shape).Idx) :
    scores a b w1 w2 w3 i
      = rowScore w1 w2 w3 (fun k => a (ix2 ⟨(i 0).val, idx2_lt0 i⟩ k) * b (ix2 ⟨(i 0).val, idx2_lt0 i⟩ k)) ⟨(i 1).val, idx2_lt1 i⟩ :=
  rfl

/-- The score of a row depends on the two arrays only through that row: if row `i' 0` of `a'`, `b'` is row `i 0` of `a`, `b`
    and the two indices name the same component, the entries agree. (The arrays may have different numbers of rows: a block
    of rows against the whole.) -/
theorem scores_congr_row {R R' : Nat} (a b : (⟨2, ![R, 128]⟩ : Shape).Idx → EReal) (a' b' : (⟨2, ![R', 128]⟩ : Shape).Idx → EReal)
    (w1 w2 : (⟨2, ![128, 128]⟩ : Shape).Idx → EReal) (w3 : (⟨2, ![128, 2]⟩ : Shape).Idx → EReal)
    (i : (⟨2, ![R, 2]⟩ : Shape).Idx) (i' : (⟨2, ![R', 2]⟩ : Shape).Idx)
    (ha : ∀ k : Fin 128, a' (ix2 ⟨(i' 0).val, idx2_lt0 i'⟩ k) = a (ix2 ⟨(i 0).val, idx2_lt0 i⟩ k))
    (hb : ∀ k : Fin 128, b' (ix2 ⟨(i' 0).val, idx2_lt0 i'⟩ k) = b (ix2 ⟨(i 0).val, idx2_lt0 i⟩ k))
    (hc : (i' 1).val = (i 1).val) :
    scores a' b' w1 w2 w3 i' = scores a b w1 w2 w3 i := by
  rw [scores_apply, scores_apply]
  have hx : (fun k => a' (ix2 ⟨(i' 0).val, idx2_lt0 i'⟩ k) * b' (ix2 ⟨(i' 0).val, idx2_lt0 i'⟩ k))
      = fun k => a (ix2 ⟨(i 0).val, idx2_lt0 i⟩ k) * b (ix2 ⟨(i 0).val, idx2_lt0 i⟩ k) :=
    funext fun k => by rw [ha k, hb k]
  have hcc : (⟨(i' 1).val, idx2_lt1 i'⟩ : Fin 2) = ⟨(i 1).val, idx2_lt1 i⟩ := Fin.ext hc
  rw [hx, hcc]

end Cert.EdgeScore

end
-- ==== Proof.RefScore.lean ====
/-
  The reference's result is the edge score of the gathered rows.

  The reference multiplies the two gathered arrays entry by entry and applies three host matrix products, the first two
  followed by a maximum with a zero splat. At the ideal instance each host product, read at `(r, c)`, is the sum over `k` of the
  left operand at `(r, k)` times the right operand at `(k, c)` — the generated read-at-an-index lemmas, with their index
  functions rewritten to the coordinates `(r, k)` and `(k, c)` — and the maximum with the zero splat is the maximum with `0`. So
  its last stage is `EdgeScore.scores` at 640000 rows of the two gathered arrays and the three weight matrices. The gathers
  themselves (which row of the table an edge reads) are not opened: they enter only as the two arrays `scores` is applied to.
-/
import proofs.«144587_j84335977824414_2_alg».proof.Proof.Gen.ReferenceIdeal.Read
import proofs.«144587_j84335977824414_2_alg».proof.Proof.Score

noncomputable section

open scoped BigOperators

namespace Cert.ReferenceIdeal.RefScore

open Cert.ReferenceIdeal Cert.ReferenceIdeal.Read Cert.EdgeScore Idealize.ShloMosaic Idealize.ShloMosaic.ValueIdx

/-! ## The operands' indices of the three products, by coordinates -/

theorem left15 (i : S640000x128.Idx) (k : Fin 128) : lidx_main_v15 i k = ix2 ⟨(i 0).val, idx2_lt0 i⟩ k :=
  funext fun a => by match a with | ⟨0, _⟩ => rfl | ⟨1, _⟩ => rfl
theorem right15 (i : S640000x128.Idx) (k : Fin 128) : ridx_main_v15 i k = ix2 k ⟨(i 1).val, idx2_lt1 i⟩ :=
  funext fun a => by match a with | ⟨0, _⟩ => rfl | ⟨1, _⟩ => rfl
theorem left17 (i : S640000x128.Idx) (k : Fin 128) : lidx_main_v17 i k = ix2 ⟨(i 0).val, idx2_lt0 i⟩ k :=
  funext fun a => by match a with | ⟨0, _⟩ => rfl | ⟨1, _⟩ => rfl
theorem right17 (i : S640000x128.Idx) (k : Fin 128) : ridx_main_v17 i k = ix2 k ⟨(i 1).val, idx2_lt1 i⟩ :=
  funext fun a => by match a with | ⟨0, _⟩ => rfl | ⟨1, _⟩ => rfl
theorem left19 (i : S640000x2.Idx) (k : Fin 128) : lidx_main_v19 i k = ix2 ⟨(i 0).val, idx2_lt0 i⟩ k :=
  funext fun a => by match a with | ⟨0, _⟩ => rfl | ⟨1, _⟩ => rfl
theorem right19 (i : S640000x2.Idx) (k : Fin 128) : ridx_main_v19 i k = ix2 k ⟨(i 1).val, idx2_lt1 i⟩ :=
  funext fun a => by match a with | ⟨0, _⟩ => rfl | ⟨1, _⟩ => rfl

/-! ## Each stage as a layer -/

/-- The first product: the pointwise product of the gathered rows times `W₁`. -/
theorem first_product (x0 : (⟨S100000x128, .f32⟩ : BufTy).Contents (Elt Ideal)) (x1 x2 : (⟨S640000, .i32⟩ : BufTy).Contents (Elt Ideal))
    (x3 : (⟨S128x128, .f32⟩ : BufTy).Contents (Elt Ideal)) :
    val_main_v15 (F := Ideal) x0 x1 x2 x3 = layer (R := 640000) (n := 128) (val_main_v14 (F := Ideal) x0 x1 x2) x3 := by
  funext i
  rw [val_main_v15_apply]
  unfold layer
  exact Finset.sum_congr rfl fun k _ => by rw [left15, right15]

/-- The maximum with the first zero splat is the maximum with `0`. -/
theorem first_relu (h : S640000x128.Idx → EReal) :
    maximumf (F := Ideal) (φ := .f32) h (val_main_call0_v0 (F := Ideal)) = relu h := by
  funext i
  show max (h i) (val_main_call0_v0 (F := Ideal) i) = max (h i) 0
  rw [val_main_call0_v0_apply, val_main_call0_cst_apply]
  show max (h i) (Ideal.ofBits .f32 0x00000000#32) = max (h i) 0
  rw [Ideal.ofBits_zero_f32]

/-- The second product. -/
theorem second_product (x0 : (⟨S100000x128, .f32⟩ : BufTy).Contents (Elt Ideal)) (x1 x2 : (⟨S640000, .i32⟩ : BufTy).Contents (Elt Ideal))
    (x3 x4 : (⟨S128x128, .f32⟩ : BufTy).Contents (Elt Ideal)) :
    val_main_v17 (F := Ideal) x0 x1 x2 x3 x4 = layer (R := 640000) (n := 128) (val_main_v16 (F := Ideal) x0 x1 x2 x3) x4 := by
  funext i
  rw [val_main_v17_apply]
  unfold layer
  exact Finset.sum_congr rfl fun k _ => by rw [left17, right17]

/-- The maximum with the second zero splat is the maximum with `0`. -/
theorem second_relu (h : S640000x128.Idx → EReal) :
    maximumf (F := Ideal) (φ := .f32) h (val_main_call1_v0 (F := Ideal)) = relu h := by
  funext i
  show max (h i) (val_main_call1_v0 (F := Ideal) i) = max (h i) 0
  rw [val_main_call1_v0_apply, val_main_call1_cst_apply]
  show max (h i) (Ideal.ofBits .f32 0x00000000#32) = max (h i) 0
  rw [Ideal.ofBits_zero_f32]

/-- The third product, onto the two score components. -/
theorem third_product (x0 : (⟨S100000x128, .f32⟩ : BufTy).Contents (Elt Ideal)) (x1 x2 : (⟨S640000, .i32⟩ : BufTy).Contents (Elt Ideal))
    (x3 x4 : (⟨S128x128, .f32⟩ : BufTy).Contents (Elt Ideal)) (x5 : (⟨S128x2, .f32⟩ : BufTy).Contents (Elt Ideal)) :
    val_main_v19 (F := Ideal) x0 x1 x2 x3 x4 x5 = layer (R := 640000) (n := 2) (val_main_v18 (F := Ideal) x0 x1 x2 x3 x4) x5 := by
  funext i
  rw [val_main_v19_apply]
  unfold layer
  exact Finset.sum_congr rfl fun k _ => by rw [left19, right19]

/-! ## The reference's last stage -/

/-- The reference's result, as a function of the arguments: the scores of the 640000 edges from the two gathered arrays. -/
theorem result_eq_scores (x0 : (⟨S100000x128, .f32⟩ : BufTy).Contents (Elt Ideal)) (x1 x2 : (⟨S640000, .i32⟩ : BufTy).Contents (Elt Ideal))
    (x3 x4 : (⟨S128x128, .f32⟩ : BufTy).Contents (Elt Ideal)) (x5 : (⟨S128x2, .f32⟩ : BufTy).Contents (Elt Ideal)) :
    val_main_v19 (F := Ideal) x0 x1 x2 x3 x4 x5
      = scores (R := 640000) (val_main_v6 (F := Ideal) x0 x1) (val_main_v13 (F := Ideal) x0 x2) x3 x4 x5 := by
  rw [third_product]
  unfold val_main_v18
  rw [second_relu, second_product]
  unfold val_main_v16
  rw [first_relu, first_product]
  rfl

end Cert.ReferenceIdeal.RefScore

end
-- ==== Proof.BlockScore.lean ====
/-
  What one grid point computes is the edge score of its block of rows.

  The kernel body multiplies its two blocks of 6400 gathered rows entry by entry and applies three matrix-unit products into a
  zero accumulator, the first two followed by a maximum with a zero splat; every change of float format in between is the
  identity on the extended reals. A matrix-unit product into the zero accumulator, read at `(r, c)`, is the sum over `k` of the left
  operand at `(r, k)` times the right operand at `(k, c)`: the contraction index is re-indexed by its one coordinate, exactly as for
  the host's product. So the value stored by the body is `EdgeScore.scores` at 6400 rows of the blocks it loaded.
-/
import proofs.«144587_j84335977824414_2_alg».proof.Proof.Gen.KernelIdeal.Skeleton
import proofs.«144587_j84335977824414_2_alg».proof.Proof.Score
import Idealize.ShloMosaic.Lib.Pipeline.Value
import Idealize.ShloMosaic.Lib.ValueIdx
import Idealize.ShloMosaic.PureOps.Ideal.Laws

noncomputable section

open scoped BigOperators

namespace Cert.KernelIdeal.BlockScore

open Cert.KernelIdeal Cert.KernelIdeal.Gen Cert.EdgeScore Idealize.ShloMosaic Idealize.ShloMosaic.ValueIdx

/-! ## The two shapes of matrix-unit product, read at an index -/

theorem left_row128 (i : S6400x128.Idx) (q : dot_S6400x128_S128x128_S6400x128_1_0_0_1_n_n.contr.Idx) :
    (dot_S6400x128_S128x128_S6400x128_1_0_0_1_n_n.lhsIdx i q 0).val = (i 0).val := by
  unfold DotDims.lhsIdx
  rw [dif_neg (show ¬(0 : Fin S6400x128.rank) ∈ dot_S6400x128_S128x128_S6400x128_1_0_0_1_n_n.lhsBatch by decide),
    dif_pos (show (0 : Fin S6400x128.rank) ∈ dot_S6400x128_S128x128_S6400x128_1_0_0_1_n_n.lhsNonContracting by decide)]
  rfl

theorem right_col128 (i : S6400x128.Idx) (q : dot_S6400x128_S128x128_S6400x128_1_0_0_1_n_n.contr.Idx) :
    (dot_S6400x128_S128x128_S6400x128_1_0_0_1_n_n.rhsIdx i q 1).val = (i 1).val := by
  unfold DotDims.rhsIdx
  rw [dif_neg (show ¬(1 : Fin S128x128.rank) ∈ dot_S6400x128_S128x128_S6400x128_1_0_0_1_n_n.rhsBatch by decide),
    dif_pos (show (1 : Fin S128x128.rank) ∈ dot_S6400x128_S128x128_S6400x128_1_0_0_1_n_n.rhsNonContracting by decide)]
  rfl

/-- A 6400 × 128 by 128 × 128 product into the zero accumulator is the layer of its operands. -/
theorem product128 (lhs : FVec Ideal S6400x128 .bf16) (rhs : FVec Ideal S128x128 .bf16) :
    matmul (F := Ideal) dot_S6400x128_S128x128_S6400x128_1_0_0_1_n_n none lhs rhs (constant S6400x128 .f32 0x00000000#32)
      = layer (R := 6400) (n := 128) lhs rhs := by
  funext i
  show FloatOps.matmul dot_S6400x128_S128x128_S6400x128_1_0_0_1_n_n none lhs rhs (constant S6400x128 .f32 0x00000000#32) i = _
  rw [Ideal.matmul_constant_zero_apply, ← Equiv.sum_comp (contrEquiv1 dot_S6400x128_S128x128_S6400x128_1_0_0_1_n_n 128 rfl rfl).symm]
  unfold layer
  refine Finset.sum_congr rfl fun k _ => ?_
  have hk := contrEquiv1_symm_val dot_S6400x128_S128x128_S6400x128_1_0_0_1_n_n 128 rfl rfl k
  have el : dot_S6400x128_S128x128_S6400x128_1_0_0_1_n_n.lhsIdx i ((contrEquiv1 dot_S6400x128_S128x128_S6400x128_1_0_0_1_n_n 128 rfl rfl).symm k) = ix2 ⟨(i 0).val, idx2_lt0 i⟩ k :=
    funext fun a => Fin.ext (by
      match a with
      | ⟨0, _⟩ => exact left_row128 _ _
      | ⟨1, _⟩ => exact (dot_S6400x128_S128x128_S6400x128_1_0_0_1_n_n.lhsIdx_val_of_single rfl i _).trans hk)
  have er : dot_S6400x128_S128x128_S6400x128_1_0_0_1_n_n.rhsIdx i ((contrEquiv1 dot_S6400x128_S128x128_S6400x128_1_0_0_1_n_n 128 rfl rfl).symm k) = ix2 k ⟨(i 1).val, idx2_lt1 i⟩ :=
    funext fun a => Fin.ext (by
      match a with
      | ⟨0, _⟩ => exact (dot_S6400x128_S128x128_S6400x128_1_0_0_1_n_n.rhsIdx_val_of_single rfl i _).trans hk
      | ⟨1, _⟩ => exact right_col128 _ _)
  rw [el, er]

theorem left_row2 (i : S6400x2.Idx) (q : dot_S6400x128_S128x2_S6400x2_1_0_0_1_n_n.contr.Idx) :
    (dot_S6400x128_S128x2_S6400x2_1_0_0_1_n_n.lhsIdx i q 0).val = (i 0).val := by
  unfold DotDims.lhsIdx
  rw [dif_neg (show ¬(0 : Fin S6400x128.rank) ∈ dot_S6400x128_S128x2_S6400x2_1_0_0_1_n_n.lhsBatch by decide),
    dif_pos (show (0 : Fin S6400x128.rank) ∈ dot_S6400x128_S128x2_S6400x2_1_0_0_1_n_n.lhsNonContracting by decide)]
  rfl

theorem right_col2 (i : S6400x2.Idx) (q : dot_S6400x128_S128x2_S6400x2_1_0_0_1_n_n.contr.Idx) :
    (dot_S6400x128_S128x2_S6400x2_1_0_0_1_n_n.rhsIdx i q 1).val = (i 1).val := by
  unfold DotDims.rhsIdx
  rw [dif_neg (show ¬(1 : Fin S128x2.rank) ∈ dot_S6400x128_S128x2_S6400x2_1_0_0_1_n_n.rhsBatch by decide),
    dif_pos (show (1 : Fin S128x2.rank) ∈ dot_S6400x128_S128x2_S6400x2_1_0_0_1_n_n.rhsNonContracting by decide)]
  rfl

/-- A 6400 × 128 by 128 × 2 product into the zero accumulator is the layer of its operands. -/
theorem product2 (lhs : FVec Ideal S6400x128 .bf16) (rhs : FVec Ideal S128x2 .bf16) :
    matmul (F := Ideal) dot_S6400x128_S128x2_S6400x2_1_0_0_1_n_n none lhs rhs (constant S6400x2 .f32 0x00000000#32)
      = layer (R := 6400) (n := 2) lhs rhs := by
  funext i
  show FloatOps.matmul dot_S6400x128_S128x2_S6400x2_1_0_0_1_n_n none lhs rhs (constant S6400x2 .f32 0x00000000#32) i = _
  rw [Ideal.matmul_constant_zero_apply, ← Equiv.sum_comp (contrEquiv1 dot_S6400x128_S128x2_S6400x2_1_0_0_1_n_n 128 rfl rfl).symm]
  unfold layer
  refine Finset.sum_congr rfl fun k _ => ?_
  have hk := contrEquiv1_symm_val dot_S6400x128_S128x2_S6400x2_1_0_0_1_n_n 128 rfl rfl k
  have el : dot_S6400x128_S128x2_S6400x2_1_0_0_1_n_n.lhsIdx i ((contrEquiv1 dot_S6400x128_S128x2_S6400x2_1_0_0_1_n_n 128 rfl rfl).symm k) = ix2 ⟨(i 0).val, idx2_lt0 i⟩ k :=
    funext fun a => Fin.ext (by
      match a with
      | ⟨0, _⟩ => exact left_row2 _ _
      | ⟨1, _⟩ => exact (dot_S6400x128_S128x2_S6400x2_1_0_0_1_n_n.lhsIdx_val_of_single rfl i _).trans hk)
  have er : dot_S6400x128_S128x2_S6400x2_1_0_0_1_n_n.rhsIdx i ((contrEquiv1 dot_S6400x128_S128x2_S6400x2_1_0_0_1_n_n 128 rfl rfl).symm k) = ix2 k ⟨(i 1).val, idx2_lt1 i⟩ :=
    funext fun a => Fin.ext (by
      match a with
      | ⟨0, _⟩ => exact (dot_S6400x128_S128x2_S6400x2_1_0_0_1_n_n.rhsIdx_val_of_single rfl i _).trans hk
      | ⟨1, _⟩ => exact right_col2 _ _)
  rw [el, er]

/-- The maximum with the zero splat is the maximum with `0`. -/
theorem relu_zero_splat (h : FVec Ideal S6400x128 .f32) :
    maximumf h (broadcast S6400x128 (Scalar.ofBits (F := Ideal) .f32 0x00000000#32)) = relu h := by
  funext i
  show max (h i) (Ideal.ofBits .f32 0x00000000#32) = max (h i) 0
  rw [Ideal.ofBits_zero_f32]

/-! ## The body's stored value -/

/-- The value the body stores, from the blocks it loaded: the scores of the block's 6400 rows. -/
theorem payload_eq_scores (x0 x1 : Vec Ideal S6400x128 .bf16) (x2 x3 : Vec Ideal S128x128 .f32) (x4 : Vec Ideal S128x2 .f32) :
    k0_pay1 (F := Ideal) x0 x1 x2 x3 x4 = scores (R := 6400) x0 x1 x2 x3 x4 := by
  unfold k0_pay1
  simp only [shapeCast_self, product128, product2, relu_zero_splat]
  rfl

end Cert.KernelIdeal.BlockScore

end
-- ==== Proof.Tiling.lean ====
/-
  From blocks to the array: the kernel's result is the edge score of the gathered rows.

  The grid has 100 points. Point `t` reads rows `6400 t … 6400 t + 6399` of the two gathered arrays (windows 0 and 1), the whole
  of each weight matrix (windows 2, 3, 4: one block, at block index `(0, 0)`), and writes back rows `6400 t … 6400 t + 6399` of the
  result (window 5). An entry of a block sits in its array at block index × block size + its coordinate inside the block, on
  each axis. By `BlockScore.payload_eq_scores` the body stores the scores of its 6400 rows, and a row's score depends on the
  arrays only through that row (`EdgeScore.scores_congr_row`); so what point `t` writes back is block `t` of ONE function of the whole
  arrays, `EdgeScore.scores` at 640000 rows. Row `r` of the result lies in the block of point `r / 6400`, so the blocks cover the
  result array and it ends holding that function.

  The two gathered arrays are written by the host operations before the call: the table is gathered at the edge's endpoint
  index, a negative index first moved up by the number of table rows (`gatheredRows`; the table's change of float format before
  the gather is the identity on the extended reals). That function is carried closed; which table row an edge reads is never opened.
-/
import proofs.«144587_j84335977824414_2_alg».proof.Proof.Gen.KernelIdeal.Value
import proofs.«144587_j84335977824414_2_alg».proof.Proof.BlockScore
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.Tiling

open Cert.KernelIdeal Cert.KernelIdeal.Gen Cert.KernelIdeal.Value Cert.EdgeScore Idealize.ShloMosaic.ValueIdx

variable (m : (ℓ : Loc nD τ sig) → Buf (Elt Ideal) ℓ) (ρ : Dev nD → PrngReg)

/-! ## The gathered rows -/

/-- The rows of the table `x` at the indices `idx`, one per edge: an index below zero is first moved up by 100000, then the row
    is gathered (read signed and clamped into the table). Both programs apply exactly these operations. -/
def gatheredRows (x : S100000x128.Idx → EReal) (idx : IVec S640000 32) : S640000x128.Idx → EReal :=
  Host.gather gather_S100000x128_S640000x1_S640000x128_1_0_n_n_0_1_1128 x
    (broadcastInDim S640000x1 ![0] bcast_S640000_S640000x1_0
      (select (cmpi .slt idx (broadcastInDim S640000 ![] bcast_S_S640000 (constantI S_ 32 0#32)))
        (addi idx (broadcastInDim S640000 ![] bcast_S_S640000 (constantI S_ 32 100000#32))) idx))

/-- Window 0's array, as the region finds it: the table's rows at the first endpoints. -/
theorem rows_src (c : Dev nD) :
    (V m c main_v7 : S640000x128.Idx → EReal)
      = gatheredRows (m ((c : Thread nD τ).loc main_arg0)) (m ((c : Thread nD τ).loc main_arg1)) := by
  dsimp only [Gen.V, Gen.hostOps0]
  after_results
  rfl

/-- Window 1's array: the table's rows at the second endpoints. -/
theorem rows_dst (c : Dev nD) :
    (V m c main_v14 : S640000x128.Idx → EReal)
      = gatheredRows (m ((c : Thread nD τ).loc main_arg0)) (m ((c : Thread nD τ).loc main_arg2)) := by
  dsimp only [Gen.V, Gen.hostOps0]
  after_results
  rfl

/-! ## The block indices over the grid -/

theorem hz : (![0, 0] : Fin 2 → Nat) = fun _ => 0 := funext fun a => by fin_cases a <;> rfl

/-- The printed index maps, decided over the 100 points: the row windows and the result window sit at block `(t, 0)`, the
    weight windows at block `(0, 0)`. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The weight windows: one block, the whole matrix -/

theorem weights1 (c : Dev nD) (t : Fin cfg0.N) : iblk m c 2 t = V m c main_arg3 := by
  obtain ⟨-, -, -, -, e0, e1, -⟩ := block_index t
  funext y
  show V m c main_arg3 (((cfg0.win 2).blk t).view.emb y) = V m c main_arg3 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem weights2 (c : Dev nD) (t : Fin cfg0.N) : iblk m c 3 t = V m c main_arg4 := by
  obtain ⟨-, -, -, -, -, -, e0, e1, -⟩ := block_index t
  funext y
  show V m c main_arg4 (((cfg0.win 3).blk t).view.emb y) = V m c main_arg4 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem weights3 (c : Dev nD) (t : Fin cfg0.N) : iblk m c 4 t = V m c main_arg5 := by
  obtain ⟨-, -, -, -, -, -, -, -, e0, e1, -⟩ := block_index t
  funext y
  show V m c main_arg5 (((cfg0.win 4).blk t).view.emb y) = V m c main_arg5 y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 2 + 1 * (y 1).val = (y 1).val; omega

/-! ## What a point writes back -/

/-- The result array's contents after the region, as one function of the arrays the region finds: the scores of all edges. -/
abbrev result (c : Dev nD) : S640000x2.Idx → EReal :=
  scores (R := 640000) (V m c main_v7) (V m c main_v14) (V m c main_arg3) (V m c main_arg4) (V m c main_arg5)

/-- Point `t` writes back block `t` of `result`. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero hz]
  simp only [View.ld_unit_zero (S := S6400x128) hz, View.ld_unit_zero (S := S128x128) hz, View.ld_unit_zero (S := S128x2) hz]
  rw [BlockScore.payload_eq_scores, weights1 m c t, weights2 m c t, weights3 m c t]
  obtain ⟨e00, e01, e10, e11, -, -, -, -, -, -, e50, e51⟩ := block_index t
  funext y
  show scores (R := 6400) (iblk m c 0 t) (iblk m c 1 t) (V m c main_arg3) (V m c main_arg4) (V m c main_arg5) y
    = scores (R := 640000) (V m c main_v7) (V m c main_v14) (V m c main_arg3) (V m c main_arg4) (V m c main_arg5)
        (((cfg0.win 5).blk t).view.emb y)
  refine scores_congr_row _ _ _ _ _ _ _ _ _ (fun k => ?_) (fun k => ?_) ?_
  · show V m c main_v7 (((cfg0.win 0).blk t).view.emb (ix2 ⟨(y 0).val, idx2_lt0 y⟩ k))
      = V m c main_v7 (ix2 ⟨((((cfg0.win 5).blk t).view.emb y) 0).val, idx2_lt0 _⟩ k)
    refine congrArg _ (funext fun a => Fin.ext ?_)
    match a with
    | ⟨0, _⟩ => show win0_0.index t (0 : Fin 2) * 6400 + 1 * (y 0).val = win0_5.index t (0 : Fin 2) * 6400 + 1 * (y 0).val; omega
    | ⟨1, _⟩ => show win0_0.index t (1 : Fin 2) * 128 + 1 * k.val = k.val; omega
  · show V m c main_v14 (((cfg0.win 1).blk t).view.emb (ix2 ⟨(y 0).val, idx2_lt0 y⟩ k))
      = V m c main_v14 (ix2 ⟨((((cfg0.win 5).blk t).view.emb y) 0).val, idx2_lt0 _⟩ k)
    refine congrArg _ (funext fun a => Fin.ext ?_)
    match a with
    | ⟨0, _⟩ => show win0_1.index t (0 : Fin 2) * 6400 + 1 * (y 0).val = win0_5.index t (0 : Fin 2) * 6400 + 1 * (y 0).val; omega
    | ⟨1, _⟩ => show win0_1.index t (1 : Fin 2) * 128 + 1 * k.val = k.val; omega
  · show (y 1).val = win0_5.index t (1 : Fin 2) * 2 + 1 * (y 1).val
    omega

/-! ## The blocks cover the result -/

/-- An index of the result is in point `t`'s block iff each coordinate is in the block's range on its axis. -/
theorem mem_block (t : Fin cfg0.N) (i : S640000x2.Idx) :
    i ∈ ((cfg0.win 5).blk t).view.set ↔ ∀ a : Fin 2, win0_5.index t a * S6400x2.size a ≤ (i a).val ∧ (i a).val < win0_5.index t a * S6400x2.size a + S6400x2.size a := by
  show i ∈ ((View.whole main_v15).slice (win0_5.rect t)).set ↔ _
  rw [View.set_slice_whole, Rect.mem_set_unit]
  exact Iff.rfl

/-- Row `r` of the result is in the block of point `r / 6400`. -/
theorem cover (i : S640000x2.Idx) :
    ∃ t : Fin cfg0.N, (cfg0.win 5).flush t = true ∧ i ∈ ((cfg0.win 5).blk t).view.set := by
  have hN : cfg0.N = 100 := N_0
  have hi0 : (i 0).val < 640000 := (i 0).isLt
  have hi1 : (i 1).val < 2 := (i 1).isLt
  obtain ⟨t, ht⟩ : ∃ t : Fin cfg0.N, t.val = (i 0).val / 6400 := ⟨⟨(i 0).val / 6400, by omega⟩, rfl⟩
  obtain ⟨-, -, -, -, -, -, -, -, -, -, e50, e51⟩ := block_index t
  refine ⟨t, flush0_5 t, ?_⟩
  rw [mem_block]
  intro a
  match a with
  | ⟨0, _⟩ => show win0_5.index t (0 : Fin 2) * 6400 ≤ (i 0).val ∧ (i 0).val < win0_5.index t (0 : Fin 2) * 6400 + 6400; omega
  | ⟨1, _⟩ => show win0_5.index t (1 : Fin 2) * 2 ≤ (i 1).val ∧ (i 1).val < win0_5.index t (1 : Fin 2) * 2 + 2; omega

/-- So the result array ends holding `result`. -/
theorem final (c : Dev nD) : (dats m 0 c).arrAt 5 cfg0.N = result m c :=
  (dats m 0 c).arrAt_eq_of_cover 5 (result m c) (fun t _ => flushed_eq m c t) cover

/-- `result` from the program's arguments: the scores of the rows gathered at the two endpoint index arrays. -/
theorem result_eq (c : Dev nD) :
    result m c = scores (R := 640000)
      (gatheredRows (m ((c : Thread nD τ).loc main_arg0)) (m ((c : Thread nD τ).loc main_arg1)))
      (gatheredRows (m ((c : Thread nD τ).loc main_arg0)) (m ((c : Thread nD τ).loc main_arg2)))
      (m ((c : Thread nD τ).loc main_arg3)) (m ((c : Thread nD τ).loc main_arg4)) (m ((c : Thread nD τ).loc main_arg5)) := by
  unfold result
  rw [rows_src, rows_dst, V_main_arg3, V_main_arg4, V_main_arg5]

/-! ## The run -/

/-- Every weakly fair execution of the idealized kernel program terminates with the result array at the scores of the
    gathered rows and the arguments unchanged. -/
theorem run : θ_run defs (onTc (τ := τ) (main (F := Ideal))) ⟨m, fun _ => 0, ρ⟩ fun r => ∀ c : Dev nD,
      r.2.mem ((c : Thread nD τ).loc main_v15) = scores (R := 640000)
        (gatheredRows (m ((c : Thread nD τ).loc main_arg0)) (m ((c : Thread nD τ).loc main_arg1)))
        (gatheredRows (m ((c : Thread nD τ).loc main_arg0)) (m ((c : Thread nD τ).loc main_arg2)))
        (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (result_eq m c)), (h c).2⟩)
    (Value.run_blocks m ρ)

end Cert.KernelIdeal.Tiling

end
-- ==== Proof.lean ====
/-
  The kernel program and its reference compute the same edge scores on the extended reals.

  Both programs take a table of node features (100000 rows of 128 numbers), two arrays of 640000 endpoint indices, and three
  weight matrices. For every edge they gather the two endpoint rows (a negative index first moved up by the table's height, the
  gather clamped), multiply them entry by entry, and apply a three-layer perceptron without bias: products with `W₁`, `W₂`, `W₃`,
  the first two followed by a maximum with zero. The kernel program gathers on the host and runs the perceptron in one call over
  100 blocks of 6400 edges, rounding to a narrower float format before the gather and before each product; the reference is
  written with whole-array operations. On the extended reals a change of float format is the identity, a matrix-unit product
  into a zero accumulator and a host product are the same sum over the contracted coordinate, and a block of rows of the result
  depends only on that block of rows of the inputs — so both results are ONE function of the arguments,
  `EdgeScore.scores` of the gathered rows and the weights (Score.lean):

    * the reference's run ends at that function (RefScore.lean, over the generated read-at-an-index lemmas);
    * one grid point stores that function of its blocks (BlockScore.lean);
    * the blocks written back cover the result array, which therefore ends at that function of the whole arrays
      (Tiling.lean, over the generated blockwise value leg).

  No finiteness is used: the two sides are the same sums of the same products, term by term, so the precondition is never
  opened. The three frames are the generated ones (the reference's is its generated run with the result dropped), and the
  idealization rewrote no operation, so `preserves` is `True`.
-/
import proofs.«144587_j84335977824414_2_alg».proof.Defs
import proofs.«144587_j84335977824414_2_alg».proof.Proof.Gen.Kernel
import proofs.«144587_j84335977824414_2_alg».proof.Proof.Gen.Kernel.Frame
import proofs.«144587_j84335977824414_2_alg».proof.Proof.Gen.KernelIdeal
import proofs.«144587_j84335977824414_2_alg».proof.Proof.Gen.KernelIdeal.Frame
import proofs.«144587_j84335977824414_2_alg».proof.Proof.Gen.KernelIdeal.Value
import proofs.«144587_j84335977824414_2_alg».proof.Proof.Gen.ReferenceIdeal
import proofs.«144587_j84335977824414_2_alg».proof.Proof.Gen.ReferenceIdeal.Run
import proofs.«144587_j84335977824414_2_alg».proof.Proof.Gen.ReferenceIdeal.Read
import proofs.«144587_j84335977824414_2_alg».proof.Proof.Gen.Pre_finite_inputs
import proofs.«144587_j84335977824414_2_alg».proof.Proof.RefScore
import proofs.«144587_j84335977824414_2_alg».proof.Proof.Tiling
import Idealize.ShloMosaic.Adequacy
import Idealize.ShloMosaic.Init

noncomputable section

namespace Cert.Proof

open Idealize.ShloMosaic Idealize.SL.Sem

/-! ## The two programs gather the same rows -/

/-- The reference's first gather is the kernel program's: the same index arithmetic and the same gather of the same table. -/
theorem ref_rows_src (x0 : (⟨Cert.ReferenceIdeal.S100000x128, .f32⟩ : BufTy).Contents (Elt Ideal))
    (x1 : (⟨Cert.ReferenceIdeal.S640000, .i32⟩ : BufTy).Contents (Elt Ideal)) :
    Cert.ReferenceIdeal.Read.val_main_v6 (F := Ideal) x0 x1 = Cert.KernelIdeal.Tiling.gatheredRows x0 x1 := rfl

/-- Its second gather likewise. -/
theorem ref_rows_dst (x0 : (⟨Cert.ReferenceIdeal.S100000x128, .f32⟩ : BufTy).Contents (Elt Ideal))
    (x2 : (⟨Cert.ReferenceIdeal.S640000, .i32⟩ : BufTy).Contents (Elt Ideal)) :
    Cert.ReferenceIdeal.Read.val_main_v13 (F := Ideal) x0 x2 = Cert.KernelIdeal.Tiling.gatheredRows x0 x2 := rfl

/-! ## The claims -/

theorem frame_kernel : Cert.frame_Kernel := fun m ρ _ => Cert.Kernel.Gen.frame m ρ

theorem frame_kernel_ideal : Cert.frame_KernelIdeal := fun m ρ _ => Cert.KernelIdeal.Gen.frame m ρ

/-- The reference has no kernel call: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the result array at the scores of the gathered rows. -/
theorem algebraic : Cert.algebraic_KernelIdeal_ReferenceIdeal := by
  intro m ρ m' ρ' _ hagree
  refine ⟨_, Cert.KernelIdeal.Tiling.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefScore.result_eq_scores, ref_rows_src, ref_rows_dst,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
